-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S50000x256 .f32) (main_arg1 : IVec S2x300000 32) (main_arg2 : FVec F S256x256 .f32) (main_arg3 : FVec F S256 .f32) (main_arg4 : FVec F S256x256 .f32) (main_arg5 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩

abbrev nBuf : Space → Nat
  | .hbm => 43
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S_, .i32⟩
  | .hbm, ⟨11, _⟩ => ⟨S300000, .i32⟩
  | .hbm, ⟨12, _⟩ => ⟨S300000, .i1⟩
  | .hbm, ⟨13, _⟩ => ⟨S_, .i32⟩
  | .hbm, ⟨14, _⟩ => ⟨S300000, .i32⟩
  | .hbm, ⟨15, _⟩ => ⟨S300000, .i32⟩
  | .hbm, ⟨16, _⟩ => ⟨S300000, .i32⟩
  | .hbm, ⟨17, _⟩ => ⟨S300000x1, .i32⟩
  | .hbm, ⟨18, _⟩ => ⟨S300000x256, .f32⟩
  | .hbm, ⟨19, _⟩ => ⟨S_, .f32⟩
  | .hbm, ⟨20, _⟩ => ⟨S50000x256, .f32⟩
  | .hbm, ⟨21, _⟩ => ⟨S300000x1, .i32⟩
  | .hbm, ⟨22, _⟩ => ⟨S50000x256, .f32⟩
  | .hbm, ⟨23, _⟩ => ⟨S_, .f32⟩
  | .hbm, ⟨24, _⟩ => ⟨S300000, .f32⟩
  | .hbm, ⟨25, _⟩ => ⟨S_, .f32⟩
  | .hbm, ⟨26, _⟩ => ⟨S50000, .f32⟩
  | .hbm, ⟨27, _⟩ => ⟨S300000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S256x256, .f32⟩
  | .hbm, ⟨40, _⟩ => ⟨S256x256, .bf16⟩
  | .hbm, ⟨41, _⟩ => ⟨S1x256, .f32⟩
  | .hbm, ⟨42, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S2000x256, .f32⟩
  | .local _ .vmem, ⟨9, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S_, .i32⟩
  | .hbm, ⟨11, _⟩ => ⟨S300000, .i32⟩
  | .hbm, ⟨12, _⟩ => ⟨S300000, .i1⟩
  | .hbm, ⟨13, _⟩ => ⟨S_, .i32⟩
  | .hbm, ⟨14, _⟩ => ⟨S300000, .i32⟩
  | .hbm, ⟨15, _⟩ => ⟨S300000, .i32⟩
  | .hbm, ⟨16, _⟩ => ⟨S300000, .i32⟩
  | .hbm, ⟨17, _⟩ => ⟨S300000x1, .i32⟩
  | .hbm, ⟨18, _⟩ => ⟨S300000x256, .f32⟩
  | .hbm, ⟨19, _⟩ => ⟨S_, .f32⟩
  | .hbm, ⟨20, _⟩ => ⟨S50000x256, .f32⟩
  | .hbm, ⟨21, _⟩ => ⟨S300000x1, .i32⟩
  | .hbm, ⟨22, _⟩ => ⟨S50000x256, .f32⟩
  | .hbm, ⟨23, _⟩ => ⟨S_, .f32⟩
  | .hbm, ⟨24, _⟩ => ⟨S300000, .f32⟩
  | .hbm, ⟨25, _⟩ => ⟨S_, .f32⟩
  | .hbm, ⟨26, _⟩ => ⟨S50000, .f32⟩
  | .hbm, ⟨27, _⟩ => ⟨S300000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S256x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S256x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S256x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.SageSpec.lean ====
/-
  The result of the fused SAGE / linear / residual block as ONE function of its inputs, entry by entry, on the
  extended reals.  With `mean` the neighbour means and `x` the node features (both rows × 256), `wl`, `wr`, `wln`
  the three weight matrices ALREADY TRANSPOSED (input channel × output channel) and `b` the bias:

    hidden r k = max ( Σ_j mean(r,j)·wl(j,k)  +  b(k)  +  Σ_j x(r,j)·wr(j,k) , 0 )
    out    r c = max ( Σ_k hidden(r,k)·wln(k,c)  +  x(r,c) , 0 )

  The zero is the value of the f32 zero word, kept as that word's value (it is the same word on both sides and is
  never evaluated).  The number of rows is a parameter: the kernel computes `out` on a tile of 2000 rows, the
  reference on all 50000, and row `r` of the result reads only row `r` of `mean` and of `x` (`out_congr`), which
  is all that joins a tile to the whole array.
-/
import Idealize.ShloMosaic.PureOps.Ideal
import Idealize.ShloMosaic.Lib.ValueIdx

noncomputable section

namespace Cert.SageSpec

open Idealize.ShloMosaic Idealize.ShloMosaic.ValueIdx

/-- The value of the f32 zero word. -/
abbrev zero : EReal := Ideal.ofBits .f32 0x00000000#32

/-- Hidden unit `k` of row `r`: the two linear maps and the bias, then the rectifier. -/
def hidden {n : Nat} (mean x : (⟨2, ![n, 256]⟩ : Shape).Idx → EReal) (wl wr : (⟨2, ![256, 256]⟩ : Shape).Idx → EReal)
    (b : Fin 256 → EReal) (r : Fin n) (k : Fin 256) : EReal :=
  max ((∑ j : Fin 256, mean (ix2 r j) * wl (ix2 j k)) + b k + ∑ j : Fin 256, x (ix2 r j) * wr (ix2 j k)) zero

/-- Entry `(r, c)` of the result: the third linear map of the hidden row, the residual, the rectifier. -/
def out {n : Nat} (mean x : (⟨2, ![n, 256]⟩ : Shape).Idx → EReal) (wl wr wln : (⟨2, ![256, 256]⟩ : Shape).Idx → EReal)
    (b : Fin 256 → EReal) (r : Fin n) (c : Fin 256) : EReal :=
  max ((∑ k : Fin 256, hidden mean x wl wr b r k * wln (ix2 k c)) + x (ix2 r c)) zero

/-- Row `r` of the result reads `mean` and `x` only along row `r`, and the weights and the bias entry by entry: two
    sets of inputs that agree there — a tile with `r` its local row, and the whole arrays with `r'` the same row
    counted from the top — give the same entry. -/
theorem out_congr {n n' : Nat} (mean x : (⟨2, ![n, 256]⟩ : Shape).Idx → EReal) (mean' x' : (⟨2, ![n', 256]⟩ : Shape).Idx → EReal)
    (wl wr wln wl' wr' wln' : (⟨2, ![256, 256]⟩ : Shape).Idx → EReal) (b b' : Fin 256 → EReal)
    (r : Fin n) (r' : Fin n') (c : Fin 256)
    (hm : ∀ j : Fin 256, mean (ix2 r j) = mean' (ix2 r' j)) (hx : ∀ j : Fin 256, x (ix2 r j) = x' (ix2 r' j))
    (hwl : ∀ y, wl y = wl' y) (hwr : ∀ y, wr y = wr' y) (hwln : ∀ y, wln y = wln' y) (hb : ∀ k, b k = b' k) :
    out mean x wl wr wln b r c = out mean' x' wl' wr' wln' b' r' c := by
  unfold out hidden
  simp only [hm, hx, hwl, hwr, hwln, hb]

end Cert.SageSpec

end
-- ==== Proof.KernelBlock.lean ====
/-
  One tile of the kernel.  The body loads a 2000-row tile of the neighbour means and of the node features, the three
  transposed weight matrices and the bias row, and stores ONE value: three matrix products into zero accumulators,
  the bias spread down the rows, two rectifiers and the residual.  Read at entry (p, q) of the tile that value is
  `SageSpec.out` of the loaded tiles at local row p: each product is the plain sum over the contracted channel, a
  change of float format is the identity on the extended reals, and the bias row spread over the tile reads the row.
-/
import proofs.«161352_j12180527251932_1_alg».proof.Proof.Gen.KernelIdeal.Skeleton
import proofs.«161352_j12180527251932_1_alg».proof.Proof.LibPlainDot
import proofs.«161352_j12180527251932_1_alg».proof.Proof.SageSpec
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The tile product's dimension numbers: 2000 × 256 by 256 × 256, contracting the left operand's second axis with the
    right operand's first. -/
abbrev tileDot : DotDims S2000x256 S256x256 S2000x256 := dot_S2000x256_S256x256_S2000x256_1_0_0_1_n_n

/-- The left operand is read along the output's row. -/
theorem lhs_row (j : S2000x256.Idx) (k : tileDot.contr.Idx) : (tileDot.lhsIdx j k 0).val = (j 0).val := by
  unfold DotDims.lhsIdx
  rw [dif_neg (show ¬(0 : Fin S2000x256.rank) ∈ tileDot.lhsBatch by decide),
    dif_pos (show (0 : Fin S2000x256.rank) ∈ tileDot.lhsNonContracting by decide)]
  rfl

/-- The right operand is read down the output's column. -/
theorem rhs_col (j : S2000x256.Idx) (k : tileDot.contr.Idx) : (tileDot.rhsIdx j k 1).val = (j 1).val := by
  unfold DotDims.rhsIdx
  rw [dif_neg (show ¬(1 : Fin S256x256.rank) ∈ tileDot.rhsBatch by decide),
    dif_pos (show (1 : Fin S256x256.rank) ∈ tileDot.rhsNonContracting by decide)]
  rfl

/-- A tile product into the zero accumulator, at entry (p, q), is the sum over the 256 contracted channels. -/
theorem matmul_entry {φ₁ φ₂ : FTy} (l : FVec Ideal S2000x256 φ₁) (r : FVec Ideal S256x256 φ₂) (p : Fin 2000) (q : Fin 256) :
    matmul tileDot none l r (constant S2000x256 .f32 0x00000000#32) (ix2 p q) = ∑ k : Fin 256, l (ix2 p k) * r (ix2 k q) :=
  Cert.LibPlainDot.matmul_zero_apply tileDot rfl rfl rfl rfl lhs_row rhs_col none l r p q

/-- The stored value at entry (p, q) of the tile: `SageSpec.out` of the loaded tiles, the bias read off its one row. -/
theorem payload_entry (x0 x1 : Vec Ideal S2000x256 .f32) (x2 x4 x5 : Vec Ideal S256x256 .bf16) (x3 : Vec Ideal S1x256 .f32)
    (p : Fin 2000) (q : Fin 256) :
    k0_pay1 (F := Ideal) x0 x1 x2 x4 x5 x3 (ix2 p q)
      = Cert.SageSpec.out (n := 2000) x0 x1 x2 x4 x5 (fun k => x3 (ix2 (0 : Fin 1) k)) p q := by
  simp only [k0_pay1, shapeCast_self]
  unfold Cert.SageSpec.out Cert.SageSpec.hidden
  simp only [maximumf_apply, addf_apply, matmul_entry, truncf_apply, broadcastTo_1b_ab_apply, broadcast_apply,
    Ideal.ofBits_def]

/-- The same at any index of the tile, through its two coordinates. -/
theorem payload_at (x0 x1 : Vec Ideal S2000x256 .f32) (x2 x4 x5 : Vec Ideal S256x256 .bf16) (x3 : Vec Ideal S1x256 .f32)
    (j : S2000x256.Idx) :
    k0_pay1 (F := Ideal) x0 x1 x2 x4 x5 x3 j
      = Cert.SageSpec.out (n := 2000) x0 x1 x2 x4 x5 (fun k => x3 (ix2 (0 : Fin 1) k)) (j 0) (j 1) := by
  obtain ⟨p, q, rfl⟩ : ∃ (p : Fin 2000) (q : Fin 256), j = ix2 p q := ⟨j 0, j 1, eq_ix2 j⟩
  exact payload_entry x0 x1 x2 x4 x5 x3 p q

end Cert.KernelIdeal.Block

end
-- ==== Proof.KernelArray.lean ====
/-
  From tiles to the array.  The grid has 25 points; point `t` stages rows 2000·t … 2000·t + 1999 of the neighbour
  means and of the node features, the three weight matrices and the bias row whole, and writes back rows
  2000·t … 2000·t + 1999 of the result.  A tile's entry (p, q) is `SageSpec.out` of the staged tiles at local row p
  (the body's stored value), and local row p of a tile IS row 2000·t + p of its array, so what point `t` writes back is
  tile `t` of ONE whole-array function, `whole`: `SageSpec.out` of the arrays as the region finds them.  The 25 tiles
  cover the 50000 rows (row r lies in tile r / 2000), so after the run the result array is `whole`.
-/
import proofs.«161352_j12180527251932_1_alg».proof.Proof.Gen.KernelIdeal.Value
import proofs.«161352_j12180527251932_1_alg».proof.Proof.KernelBlock

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array as one function of the arrays the region finds: the neighbour means (written by the host
    operations before the region), the node features, the three transposed weight matrices and the bias row. -/
def whole (c : Dev nD) : S50000x256.Idx → EReal := fun i =>
  Cert.SageSpec.out (n := 50000) (V m c main_v22) (V m c main_arg0) (V m c main_v24) (V m c main_v26) (V m c main_v28)
    (fun k => V m c main_v29 (ix2 (0 : Fin 1) k)) (i 0) (i 1)

/-- The printed index maps, decided over the 25 points: the means' and the features' tiles move with the result's tile
    down the rows; the weights and the bias stay at block (0, 0); every tile spans all 256 columns. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- The result's tile at point `t` is row tile `t`. -/
theorem tile_index : ∀ t : Fin cfg0.N, win0_6.index t (0 : Fin 2) = t.val :=
  (by decide +kernel : ∀ t : Fin grid0.N, win0_6.index t (0 : Fin 2) = t.val)

/-! ## A tile's rows and the array's

  At point `t` the result's tile, the means' tile and the features' tile all start at row 2000 · (the tile's index) and
  span all 256 columns; the weights and the bias are staged whole.  Each fact below reads one window's block through
  ANY contents `A` of the window's array, with the block's position taken from the decided index facts. -/

/-- A tile entry's column in the array is its column in the tile. -/
theorem col_eq (t : Fin cfg0.N) (j : S2000x256.Idx) :
    ((((cfg0.win 6).blk t).view.emb j) 1 : Fin 256) = (j 1 : Fin 256) := by
  obtain ⟨e00, e01, e10, e11, e20, e21, e30, e31, e40, e41, e50, e51, e61⟩ := idx_facts t
  have hj1 : (j 1).val < 256 := (j 1).isLt
  exact Fin.ext (by show win0_6.index t (1 : Fin 2) * 256 + 1 * (j 1).val = (j 1).val; omega)

/-- Local row p of the means' tile is the array row the result's tile has at local row p. -/
theorem means_row (c : Dev nD) (A : Buf (Elt Ideal) ((c : Thread nD τ).loc main_v22)) (t : Fin cfg0.N)
    (j : S2000x256.Idx) (k : Fin 256) :
    ((cfg0.win 0).blk t).view.read (Elt Ideal) A (ix2 (j 0) k) = A (ix2 ((((cfg0.win 6).blk t).view.emb j) 0) k) := by
  obtain ⟨e00, e01, e10, e11, e20, e21, e30, e31, e40, e41, e50, e51, e61⟩ := idx_facts t
  have hj0 : (j 0).val < 2000 := (j 0).isLt
  show A (((cfg0.win 0).blk t).view.emb (ix2 (j 0) k)) = A (ix2 ((((cfg0.win 6).blk t).view.emb j) 0) k)
  refine congrArg A (funext fun a => Fin.ext ?_)
  match a with
  | ⟨0, _⟩ => show win0_0.index t (0 : Fin 2) * 2000 + 1 * (j 0).val = win0_6.index t (0 : Fin 2) * 2000 + 1 * (j 0).val; omega
  | ⟨1, _⟩ => show win0_0.index t (1 : Fin 2) * 256 + 1 * k.val = k.val; omega

/-- The same for the features' tile. -/
theorem feats_row (c : Dev nD) (A : Buf (Elt Ideal) ((c : Thread nD τ).loc main_arg0)) (t : Fin cfg0.N)
    (j : S2000x256.Idx) (k : Fin 256) :
    ((cfg0.win 1).blk t).view.read (Elt Ideal) A (ix2 (j 0) k) = A (ix2 ((((cfg0.win 6).blk t).view.emb j) 0) k) := by
  obtain ⟨e00, e01, e10, e11, e20, e21, e30, e31, e40, e41, e50, e51, e61⟩ := idx_facts t
  have hj0 : (j 0).val < 2000 := (j 0).isLt
  show A (((cfg0.win 1).blk t).view.emb (ix2 (j 0) k)) = A (ix2 ((((cfg0.win 6).blk t).view.emb j) 0) k)
  refine congrArg A (funext fun a => Fin.ext ?_)
  match a with
  | ⟨0, _⟩ => show win0_1.index t (0 : Fin 2) * 2000 + 1 * (j 0).val = win0_6.index t (0 : Fin 2) * 2000 + 1 * (j 0).val; omega
  | ⟨1, _⟩ => show win0_1.index t (1 : Fin 2) * 256 + 1 * k.val = k.val; omega

/-- The first transposed weight matrix is staged whole. -/
theorem wl_whole (c : Dev nD) (A : Buf (Elt Ideal) ((c : Thread nD τ).loc main_v24)) (t : Fin cfg0.N) (y : S256x256.Idx) :
    ((cfg0.win 2).blk t).view.read (Elt Ideal) A y = A y := by
  obtain ⟨e00, e01, e10, e11, e20, e21, e30, e31, e40, e41, e50, e51, e61⟩ := idx_facts t
  show A (((cfg0.win 2).blk t).view.emb y) = A y
  refine congrArg A (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The second. -/
theorem wr_whole (c : Dev nD) (A : Buf (Elt Ideal) ((c : Thread nD τ).loc main_v26)) (t : Fin cfg0.N) (y : S256x256.Idx) :
    ((cfg0.win 4).blk t).view.read (Elt Ideal) A y = A y := by
  obtain ⟨e00, e01, e10, e11, e20, e21, e30, e31, e40, e41, e50, e51, e61⟩ := idx_facts t
  show A (((cfg0.win 4).blk t).view.emb y) = A y
  refine congrArg A (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The third. -/
theorem wln_whole (c : Dev nD) (A : Buf (Elt Ideal) ((c : Thread nD τ).loc main_v28)) (t : Fin cfg0.N) (y : S256x256.Idx) :
    ((cfg0.win 5).blk t).view.read (Elt Ideal) A y = A y := by
  obtain ⟨e00, e01, e10, e11, e20, e21, e30, e31, e40, e41, e50, e51, e61⟩ := idx_facts t
  show A (((cfg0.win 5).blk t).view.emb y) = A y
  refine congrArg A (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- The bias row is staged whole. -/
theorem bias_whole (c : Dev nD) (A : Buf (Elt Ideal) ((c : Thread nD τ).loc main_v29)) (t : Fin cfg0.N) (y : S1x256.Idx) :
    ((cfg0.win 3).blk t).view.read (Elt Ideal) A y = A y := by
  obtain ⟨e00, e01, e10, e11, e20, e21, e30, e31, e40, e41, e50, e51, e61⟩ := idx_facts t
  show A (((cfg0.win 3).blk t).view.emb y) = A y
  refine congrArg A (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- WHAT POINT `t` WRITES BACK is tile `t` of `whole`. -/
theorem flushed_eq (c : Dev nD) (t : Fin cfg0.N) :
    (dats m 0 c).flushed 6 t = ((cfg0.win 6).blk t).view.read (Elt Ideal) (whole m c) := by
  rw [Cert.KernelIdeal.Value.flushed6]
  unfold out0_6
  rw [View.canon_unit_zero zero_offsets]
  simp only [View.ld_unit_zero (S := S2000x256) zero_offsets, View.ld_unit_zero (S := S256x256) zero_offsets,
    View.ld_unit_zero (S := S1x256) zero_offsets]
  funext j
  show k0_pay1 (F := Ideal) (iblk m c 0 t) (iblk m c 1 t) (iblk m c 2 t) (iblk m c 4 t) (iblk m c 5 t) (iblk m c 3 t) j
    = whole m c (((cfg0.win 6).blk t).view.emb j)
  refine (Cert.KernelIdeal.Block.payload_at (iblk m c 0 t) (iblk m c 1 t) (iblk m c 2 t) (iblk m c 4 t) (iblk m c 5 t)
    (iblk m c 3 t) j).trans ?_
  show _ = Cert.SageSpec.out (n := 50000) (V m c main_v22) (V m c main_arg0) (V m c main_v24) (V m c main_v26)
    (V m c main_v28) (fun k => V m c main_v29 (ix2 (0 : Fin 1) k)) ((((cfg0.win 6).blk t).view.emb j) 0)
    ((((cfg0.win 6).blk t).view.emb j) 1)
  rw [col_eq t j]
  exact Cert.SageSpec.out_congr (iblk m c 0 t) (iblk m c 1 t) (V m c main_v22) (V m c main_arg0)
    (iblk m c 2 t) (iblk m c 4 t) (iblk m c 5 t) (V m c main_v24) (V m c main_v26) (V m c main_v28)
    (fun k => iblk m c 3 t (ix2 (0 : Fin 1) k)) (fun k => V m c main_v29 (ix2 (0 : Fin 1) k))
    (j 0) ((((cfg0.win 6).blk t).view.emb j) 0) (j 1)
    (means_row c (V m c main_v22) t j) (feats_row c (V m c main_arg0) t j) (wl_whole c (V m c main_v24) t)
    (wr_whole c (V m c main_v26) t) (wln_whole c (V m c main_v28) t)
    (fun k => bias_whole c (V m c main_v29) t (ix2 (0 : Fin 1) k))

/-- An index of the array is in point `t`'s tile iff each coordinate is in the tile's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v30).slice (win0_6.rect t)).set ↔ _
  rw [View.set_slice_whole, Rect.mem_set_unit]
  exact Iff.rfl

/-- The 25 tiles cover the array: row r lies in the tile of index r / 2000. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  have q0 : win0_6.index t (0 : Fin 2) = (i 0).val / 2000 := tile_index t
  obtain ⟨e00, e01, e10, e11, e20, e21, e30, e31, e40, e41, e50, e51, q1⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 256 ≤ (i 1).val ∧ (i 1).val < win0_6.index t (1 : Fin 2) * 256 + 256
    omega

/-- THE ARRAY after the run is `whole`. -/
theorem final (c : Dev nD) : (dats m 0 c).arrAt 6 cfg0.N = whole m c :=
  (dats m 0 c).arrAt_eq_of_cover 6 (whole m c) (fun t _ => flushed_eq m c t) cover

/-- The frame run re-posted: the result array at `whole`, the six arguments unchanged. -/
theorem run : θ_run defs (onTc (τ := τ) (main (F := Ideal))) ⟨m, fun _ => 0, ρ⟩ fun r => ∀ c : Dev nD,
      r.2.mem ((c : Thread nD τ).loc main_v30) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Array

end
-- ==== Proof.HostSide.lean ====
/-
  The arrays the region finds.  The kernel's host code before the region computes the neighbour means by the SAME
  operations as the reference (slice and reshape of the edge list, wrap of negative indices, gather of the source
  rows, scatter-add of the messages and of the ones by target, the quotient by the clamped counts), transposes each
  weight matrix and changes its float format — the identity on the extended reals —, and casts the bias to one row.
  So each array the region stages is the reference's stage term of the same arguments.
-/
import proofs.«161352_j12180527251932_1_alg».proof.Proof.Gen.KernelIdeal.Frame
import proofs.«161352_j12180527251932_1_alg».proof.Proof.Gen.ReferenceIdeal.Read
import Idealize.ShloMosaic.Lib.ValueLayout
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The neighbour means the region stages are the reference's. -/
theorem means_eq (c : Dev nD) :
    (V m c main_v22 : S50000x256.Idx → EReal)
      = Cert.ReferenceIdeal.Read.val_main_v22 (F := Ideal) (m ((c : Thread nD τ).loc main_arg0)) (m ((c : Thread nD τ).loc main_arg1)) := by
  dsimp only [Gen.V, Gen.hostOps0]
  after_results_simp
  rfl

/-- The first weight matrix the region stages is the reference's transposed matrix (the change of format is the identity). -/
theorem wl_eq (c : Dev nD) :
    (V m c main_v24 : S256x256.Idx → EReal) = Cert.ReferenceIdeal.Read.val_main_v23 (F := Ideal) (m ((c : Thread nD τ).loc main_arg2)) := by
  dsimp only [Gen.V, Gen.hostOps0]
  after_results_simp
  rfl

/-- The second. -/
theorem wr_eq (c : Dev nD) :
    (V m c main_v26 : S256x256.Idx → EReal) = Cert.ReferenceIdeal.Read.val_main_v28 (F := Ideal) (m ((c : Thread nD τ).loc main_arg4)) := by
  dsimp only [Gen.V, Gen.hostOps0]
  after_results_simp
  rfl

/-- The third. -/
theorem wln_eq (c : Dev nD) :
    (V m c main_v28 : S256x256.Idx → EReal) = Cert.ReferenceIdeal.Read.val_main_v32 (F := Ideal) (m ((c : Thread nD τ).loc main_arg5)) := by
  dsimp only [Gen.V, Gen.hostOps0]
  after_results_simp
  rfl

/-- The bias row the region stages reads, at column k, the bias at k. -/
theorem bias_eq (c : Dev nD) (k : Fin 256) :
    (V m c main_v29 : S1x256.Idx → EReal) (ix2 (0 : Fin 1) k) = m ((c : Thread nD τ).loc main_arg3) (ix1 k) := by
  have e : (V m c main_v29 : S1x256.Idx → EReal) = shapeCast S1x256 (m ((c : Thread nD τ).loc main_arg3)) shapeCasts_S256_S1x256 := by
    dsimp only [Gen.V, Gen.hostOps0]
    after_results_simp
    rfl
  rw [e]
  exact shapeCast_a_1a_apply _ _ (0 : Fin 1) k

end Cert.KernelIdeal.HostSide

end
-- ==== Proof.RefRead.lean ====
/-
  The reference, read entry by entry.  After the neighbour means (`val_main_v22`, the host's gather, two scatter-adds
  and a quotient — kept whole here: the kernel's host code computes the very same array) the reference transposes each
  weight matrix, takes three matrix products over all 50000 rows, adds the bias along the rows, and applies the two
  rectifiers and the residual.  Each host product at an entry is the plain sum over the contracted channel, so entry
  (r, c) of the result is `SageSpec.out` of the means, the features, the three transposed matrices and the bias.
-/
import proofs.«161352_j12180527251932_1_alg».proof.Proof.Gen.ReferenceIdeal.Read
import proofs.«161352_j12180527251932_1_alg».proof.Proof.SageSpec

noncomputable section

namespace Cert.ReferenceIdeal.RefValue

open Cert.ReferenceIdeal Cert.ReferenceIdeal.Read Idealize.ShloMosaic Idealize.ShloMosaic.ValueIdx

/-- The reference's result as a function of its six arguments is `SageSpec.out` over the whole arrays: the means as
    the host computes them, each weight matrix transposed, the bias entry by entry. -/
theorem result_eq (x0 : (⟨S50000x256, .f32⟩ : BufTy).Contents (Elt Ideal)) (x1 : (⟨S2x300000, .i32⟩ : BufTy).Contents (Elt Ideal))
    (x2 : (⟨S256x256, .f32⟩ : BufTy).Contents (Elt Ideal)) (x3 : (⟨S256, .f32⟩ : BufTy).Contents (Elt Ideal))
    (x4 x5 : (⟨S256x256, .f32⟩ : BufTy).Contents (Elt Ideal)) :
    val_main_v35 (F := Ideal) x0 x1 x2 x3 x4 x5
      = fun i => Cert.SageSpec.out (n := 50000) (val_main_v22 (F := Ideal) x0 x1) x0 (val_main_v23 (F := Ideal) x2)
          (val_main_v28 (F := Ideal) x4) (val_main_v32 (F := Ideal) x5) (fun k => x3 (ix1 k)) (i 0) (i 1) := by
  funext i
  obtain ⟨r, c, rfl⟩ : ∃ (r : Fin 50000) (c : Fin 256), i = ix2 r c := ⟨i 0, i 1, eq_ix2 i⟩
  show _ = Cert.SageSpec.out (n := 50000) (val_main_v22 (F := Ideal) x0 x1) x0 (val_main_v23 (F := Ideal) x2)
    (val_main_v28 (F := Ideal) x4) (val_main_v32 (F := Ideal) x5) (fun k => x3 (ix1 k)) r c
  -- the operands' indices of the three products and of the two bias broadcasts, in coordinates
  have eL1 : ∀ k j : Fin 256, lidx_main_v24 (lidx_main_v33 (ix2 r c) k) j = ix2 r j := fun k j =>
    funext fun a => Fin.ext (by match a with | ⟨0, _⟩ => rfl | ⟨1, _⟩ => rfl)
  have eR1 : ∀ k j : Fin 256, ridx_main_v24 (lidx_main_v33 (ix2 r c) k) j = ix2 j k := fun k j =>
    funext fun a => Fin.ext (by match a with | ⟨0, _⟩ => rfl | ⟨1, _⟩ => rfl)
  have eL2 : ∀ k j : Fin 256, lidx_main_v29 (lidx_main_v33 (ix2 r c) k) j = ix2 r j := fun k j =>
    funext fun a => Fin.ext (by match a with | ⟨0, _⟩ => rfl | ⟨1, _⟩ => rfl)
  have eR2 : ∀ k j : Fin 256, ridx_main_v29 (lidx_main_v33 (ix2 r c) k) j = ix2 j k := fun k j =>
    funext fun a => Fin.ext (by match a with | ⟨0, _⟩ => rfl | ⟨1, _⟩ => rfl)
  have eB : ∀ k : Fin 256, idx_main_v25 (idx_main_v26 (lidx_main_v33 (ix2 r c) k)) = ix1 k := fun k =>
    funext fun a => Fin.ext (by match a with | ⟨0, _⟩ => rfl)
  have eR3 : ∀ k : Fin 256, ridx_main_v33 (ix2 r c) k = ix2 k c := fun k =>
    funext fun a => Fin.ext (by match a with | ⟨0, _⟩ => rfl | ⟨1, _⟩ => rfl)
  rw [val_main_v35_apply, val_main_v34_apply, val_main_v33_apply]
  simp only [val_main_v31_apply, val_main_v30_apply, val_main_v27_apply, val_main_v24_apply, val_main_v26_apply,
    val_main_v25_apply, val_main_v29_apply, val_main_call0_v0_apply, val_main_call0_cst_apply, val_main_call1_v0_apply,
    val_main_call1_cst_apply, eL1, eR1, eL2, eR2, eB, eR3, Ideal.maximumf_def, Ideal.addf_def, Ideal.ofBits_def]
  unfold Cert.SageSpec.out Cert.SageSpec.hidden
  rfl

end Cert.ReferenceIdeal.RefValue

end
-- ==== Proof.lean ====
/-
  The fused SAGE block against its reference, on the extended reals.

  Both programs first compute the neighbour means on the host, by the same operations; the kernel then runs a grid of
  25 tiles of 2000 rows, each tile computing

      max( max( mean·Wlᵀ + b + x·Wrᵀ , 0 )·Wlnᵀ + x , 0 )

  on its rows with the three products taken on the matrix unit into zero accumulators, while the reference computes
  the same expression on all 50000 rows with host products.  On the extended reals a change of float format is the
  identity and each product, on either side, is the plain sum over the 256 contracted channels, so both results are
  ONE function (`SageSpec.out`) of the means, the features, the transposed weights and the bias: the reference's by
  reading its run one operation at a time (`RefValue.result_eq`), the kernel's because a tile's entry is that
  function of the tile's rows (`Block.payload_at`), a tile's rows are the arrays' rows, and the tiles cover the array
  (`Array.run`).  No law of arithmetic beyond that identification is used, so the precondition is never opened.
  The two frame claims of the kernel are the generated frames; the reference's frame is its generated run with the
  result dropped; the idealized kernel is the kernel's own text read on the extended reals (no operation was
  rewritten), so `preserves` has nothing to state.
-/
import proofs.«161352_j12180527251932_1_alg».proof.Defs
import proofs.«161352_j12180527251932_1_alg».proof.Proof.Gen.Kernel
import proofs.«161352_j12180527251932_1_alg».proof.Proof.Gen.Kernel.Skeleton
import proofs.«161352_j12180527251932_1_alg».proof.Proof.Gen.Kernel.Launch
import proofs.«161352_j12180527251932_1_alg».proof.Proof.Gen.Kernel.Points
import proofs.«161352_j12180527251932_1_alg».proof.Proof.Gen.Kernel.Frame
import proofs.«161352_j12180527251932_1_alg».proof.Proof.Gen.KernelIdeal
import proofs.«161352_j12180527251932_1_alg».proof.Proof.Gen.KernelIdeal.Skeleton
import proofs.«161352_j12180527251932_1_alg».proof.Proof.Gen.KernelIdeal.Launch
import proofs.«161352_j12180527251932_1_alg».proof.Proof.Gen.KernelIdeal.Points
import proofs.«161352_j12180527251932_1_alg».proof.Proof.Gen.KernelIdeal.Frame
import proofs.«161352_j12180527251932_1_alg».proof.Proof.Gen.ReferenceIdeal
import proofs.«161352_j12180527251932_1_alg».proof.Proof.Gen.Pre_finite_inputs
import proofs.«161352_j12180527251932_1_alg».proof.Proof.Gen.KernelIdeal.Value
import proofs.«161352_j12180527251932_1_alg».proof.Proof.Gen.ReferenceIdeal.Run
import proofs.«161352_j12180527251932_1_alg».proof.Proof.Gen.ReferenceIdeal.Read
import proofs.«161352_j12180527251932_1_alg».proof.Proof.KernelArray
import proofs.«161352_j12180527251932_1_alg».proof.Proof.HostSide
import proofs.«161352_j12180527251932_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result array is the reference's result term of the same six arguments: both are `SageSpec.out`, and
    the arrays the region stages are the reference's stage terms (`HostSide`). -/
theorem kernel_eq_reference (m : (ℓ : Loc Cert.KernelIdeal.nD Cert.KernelIdeal.τ Cert.KernelIdeal.sig) → Buf (Elt Ideal) ℓ)
    (c : Dev Cert.KernelIdeal.nD) :
    Cert.KernelIdeal.Array.whole m c
      = Cert.ReferenceIdeal.Read.val_main_v35 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  rw [Cert.ReferenceIdeal.RefValue.result_eq]
  funext i
  unfold Cert.KernelIdeal.Array.whole
  exact Cert.SageSpec.out_congr _ _ _ _ _ _ _ _ _ _ _ _ _ _ _
    (fun j => congrFun (Cert.KernelIdeal.HostSide.means_eq m c) _)
    (fun j => congrFun (Cert.KernelIdeal.Gen.V_main_arg0 m c) _)
    (fun y => congrFun (Cert.KernelIdeal.HostSide.wl_eq m c) y)
    (fun y => congrFun (Cert.KernelIdeal.HostSide.wr_eq m c) y)
    (fun y => congrFun (Cert.KernelIdeal.HostSide.wln_eq m c) y)
    (fun k => Cert.KernelIdeal.HostSide.bias_eq m c k)

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `Array.whole` of the
    kernel's memory: the kernel by its run read tile by tile, the reference by its run read operation by operation
    and `kernel_eq_reference`. -/
theorem algebraic : Cert.algebraic_KernelIdeal_ReferenceIdeal := by
  intro m ρ m' ρ' _ hagree
  refine ⟨fun c => Cert.KernelIdeal.Array.whole m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2.1, (hagree c).2.2.2.2.2]
  exact (kernel_eq_reference m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
